-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x4096 : Shape := ⟨3, ![32, 1024, 4096]⟩
abbrev S_ : Shape := ⟨0, ![]⟩

class Facts : Prop where
  bcast_S_S32x1024x4096 : S_.BroadcastsInDim S32x1024x4096 (![] : Fin 0 → Fin S32x1024x4096.rank)
  reducesTo_S32x1024x4096_S_d0_1_2 : S32x1024x4096.ReducesTo [0, 1, 2] S_
  h_S_ : 0 < S_.numel

variable [Facts]

def fn {F : FTy → Type} [FloatOps F] (main_arg0 : FVec F S32x1024x4096 .f32) (main_arg1 : FVec F S32x1024x4096 .f32) : IVec S_ 1 :=
  let main_v0 : FVec F S32x1024x4096 .f32 := Host.absf main_arg0
  let main_cst : FVec F S_ .f32 := constant S_ .f32 0x7F800000#32
  let main_v1 : FVec F S32x1024x4096 .f32 := broadcastInDim S32x1024x4096 ![] bcast_S_S32x1024x4096 main_cst
  let main_v2 : IVec S32x1024x4096 1 := cmpf .olt main_v0 main_v1
  let main_c : IVec S_ 1 := constantI S_ 1 1#1
  let main_v3 : IVec S_ 1 := (fun x v => Host.reduce IntOp.andi x v reducesTo_S32x1024x4096_S_d0_1_2 h_S_) main_v2 main_c
  let main_v4 : FVec F S32x1024x4096 .f32 := Host.absf main_arg1
  let main_cst_0 : FVec F S_ .f32 := constant S_ .f32 0x7F800000#32
  let main_v5 : FVec F S32x1024x4096 .f32 := broadcastInDim S32x1024x4096 ![] bcast_S_S32x1024x4096 main_cst_0
  let main_v6 : IVec S32x1024x4096 1 := cmpf .olt main_v4 main_v5
  let main_c_1 : IVec S_ 1 := constantI S_ 1 1#1
  let main_v7 : IVec S_ 1 := (fun x v => Host.reduce IntOp.andi x v reducesTo_S32x1024x4096_S_d0_1_2 h_S_) main_v6 main_c_1
  let main_v8 : IVec S_ 1 := andi main_v3 main_v7
  main_v8
-- ==== Kernel.lean ====
abbrev S32x1024x4096 : Shape := ⟨3, ![32, 1024, 4096]⟩
abbrev S32768x4096 : Shape := ⟨2, ![32768, 4096]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S32x1024x4096, .f32⟩
  | .hbm, ⟨1, _⟩ => ⟨S32x1024x4096, .f32⟩
  | .hbm, ⟨2, _⟩ => ⟨S32768x4096, .f32⟩
  | .hbm, ⟨3, _⟩ => ⟨S32768x4096, .f32⟩
  | .hbm, ⟨4, _⟩ => ⟨S32768x4096, .f32⟩
  | .hbm, ⟨5, _⟩ => ⟨S32x1024x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | _, _ => ⟨S32x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1024x4096_S32768x4096 : S32x1024x4096.ShapeCasts S32768x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S32768x4096_S32x1024x4096 : S32768x4096.ShapeCasts S32x1024x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S32768x4096.size a
  hwx0_1 : ∀ i : grid0.Coords, EltTy.bits .f32 = 32 ∨ (Rect.block (s := S32768x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S32768x4096.size a
  hwx0_2 : ∀ i : grid0.Coords, EltTy.bits .f32 = 32 ∨ (Rect.block (s := S32768x4096) S512x4096.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S32x1024x4096 : Shape := ⟨3, ![32, 1024, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32x1024x4096, .f32⟩
  | .hbm, ⟨1, _⟩ => ⟨S32x1024x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S32x1024x4096, .f32⟩
  | .hbm, ⟨7, _⟩ => ⟨S32x1024x4096, .f32⟩
  | .hbm, ⟨8, _⟩ => ⟨S32x1024x4096, .f32⟩
  | .hbm, ⟨9, _⟩ => ⟨S32x1024x4096, .f32⟩
  | .hbm, ⟨10, _⟩ => ⟨S_, .f32⟩
  | .hbm, ⟨11, _⟩ => ⟨S32x1024x4096, .f32⟩
  | .hbm, ⟨12, _⟩ => ⟨S32x1024x4096, .f32⟩
  | .hbm, ⟨13, _⟩ => ⟨S_, .f32⟩
  | .hbm, ⟨14, _⟩ => ⟨S32x1024x4096, .f32⟩
  | .hbm, ⟨15, _⟩ => ⟨S32x1024x4096, .f32⟩
  | .hbm, ⟨16, _⟩ => ⟨S32x1024x4096, .f32⟩
  | .hbm, ⟨17, _⟩ => ⟨S32x1024x4096, .f32⟩
  | _, _ => ⟨S32x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S32x1024x4096 : S_.BroadcastsInDim S32x1024x4096 (![] : Fin 0 → Fin S32x1024x4096.rank)

variable [Facts₀]

class Facts : Prop extends Facts₀ where

variable [Facts]
-- ==== Proof.Quantizer.lean ====
/-
  The quantizer both programs compute, as one function of a pair of extended reals.

  With step σ = 2⁻⁴ the fixed-point quantizer with additive noise sends a value a and a noise sample b to
      clamp (⌊a / σ + b⌋ · σ)  into  [-8, 8 - σ],
  every operation the exact one on the extended reals (the quotient is the ideal instance's division, the floor
  fixes the infinities).  The three float words are kept as the words the programs spell; only the upper end of the
  range is evaluated, because one program spells it as the word of 7.9375 and the other computes 8 - σ.
-/
import Idealize.ShloMosaic.PureOps.Ideal

noncomputable section

namespace Cert.Quantizer

open Idealize.ShloMosaic

/-- The quantization step σ = 2⁻⁴ = 0.0625, as its float word. -/
abbrev step : EReal := Ideal.ofBits .f32 0x3D800000#32
/-- The lower end of the representable range, -8. -/
abbrev lo : EReal := Ideal.ofBits .f32 0xC1000000#32
/-- The upper end of the representable range, 8 - σ = 7.9375. -/
abbrev hi : EReal := Ideal.ofBits .f32 0x40FE0000#32

/-- Quantize `a` with noise `b`: scale by 1/σ, add the noise, round down, scale back by σ, clamp to [lo, hi]. -/
def quant (a b : EReal) : EReal :=
  min hi (max lo (Ideal.liftRound Int.floor (Ideal.div a step + b) * step))

/-- The word of 8.0 denotes the real 8. -/
theorem ofBits_eight : Ideal.ofBits .f32 0x41000000#32 = ((8 : ℝ) : EReal) := by
  simp [Ideal.ofBits, Ideal.ieee, -EReal.coe_mul]; norm_num

/-- The word of 0.0625 denotes the real 1/16. -/
theorem ofBits_step : Ideal.ofBits .f32 0x3D800000#32 = ((1 / 16 : ℝ) : EReal) := by
  simp [Ideal.ofBits, Ideal.ieee, -EReal.coe_mul]; norm_num

/-- The word of 7.9375 denotes the real 127/16. -/
theorem ofBits_hi : Ideal.ofBits .f32 0x40FE0000#32 = ((127 / 16 : ℝ) : EReal) := by
  simp [Ideal.ofBits, Ideal.ieee, -EReal.coe_mul]; norm_num

/-- 8 - σ is the upper end of the range: 8 - 1/16 = 127/16, a difference of two reals. -/
theorem eight_sub_step :
    Ideal.ofBits .f32 0x41000000#32 - Ideal.ofBits .f32 0x3D800000#32 = hi := by
  show _ = Ideal.ofBits .f32 0x40FE0000#32
  rw [ofBits_eight, ofBits_step, ofBits_hi, ← EReal.coe_sub]
  norm_num

end Cert.Quantizer

end
-- ==== Proof.ReferenceValue.lean ====
/-
  The reference, element by element, is the quantizer.

  The reference divides the value array by the splat step, adds the noise array, rounds down, multiplies by the splat
  step and clamps between the splat -8 and the splat (8 - step).  Every stage reads one element of each operand at
  the same index, and each splat reads its scalar, so the result at an index is the quantizer of the two arrays'
  elements there — once the scalar difference 8 - step is recognised as the upper end of the range.
-/
import proofs.«105005_j14353780703995_2_alg».proof.Proof.Gen.ReferenceIdeal.Read
import proofs.«105005_j14353780703995_2_alg».proof.Proof.Quantizer

noncomputable section

namespace Cert.ReferenceIdeal.RefValue

open Cert.ReferenceIdeal Cert.ReferenceIdeal.Read Idealize.ShloMosaic Cert.Quantizer

/-- The reference's result stage at an index is the quantizer of its two arguments' elements at that index. -/
theorem result_eq_quant (x0 x1 : (⟨S32x1024x4096, .f32⟩ : BufTy).Contents (Elt Ideal)) :
    val_main_v7 (F := Ideal) x0 x1 = fun i => quant (x0 i) (x1 i) := by
  funext i
  rw [val_main_v7_apply, val_main_call0_v2_apply, val_main_v0_apply, val_main_cst_apply, val_main_cst_0_apply,
    val_main_call0_v1_apply, val_main_call0_v0_apply, val_main_cst_3_apply, val_main_v6_apply, val_main_v4_apply,
    val_main_v3_apply, val_main_v2_apply, val_main_v1_apply, val_main_cst_1_apply, val_main_v5_apply,
    val_main_cst_2_apply]
  show min (Ideal.ofBits .f32 0x41000000#32 - Ideal.ofBits .f32 0x3D800000#32) _ = _
  rw [eight_sub_step]
  rfl

end Cert.ReferenceIdeal.RefValue

end
-- ==== Proof.BlockValue.lean ====
/-
  The kernel body's arithmetic, element by element, is the quantizer.

  The body loads a 512×4096 block of the value array and the same block of the noise array, and stores
  min(7.9375, max(-8, ⌊v / step + r⌋ · step)), every operation acting element by element and every constant a
  splat.  The two shape casts are casts of a block to its own shape, so they change nothing.  Hence the stored block
  at an index is the quantizer of the two loaded blocks' elements at that index.
-/
import proofs.«105005_j14353780703995_2_alg».proof.Proof.Gen.KernelIdeal.Skeleton
import proofs.«105005_j14353780703995_2_alg».proof.Proof.Quantizer
import Idealize.ShloMosaic.Lib.Pipeline.Value

noncomputable section

namespace Cert.KernelIdeal.BlockValue

open Cert.KernelIdeal Cert.KernelIdeal.Gen Idealize.ShloMosaic Cert.Quantizer

/-- What one grid step stores, from the two blocks it loaded: the quantizer applied index by index. -/
theorem payload_eq_quant (v0 v2 : Vec Ideal S512x4096 .f32) :
    k0_pay1 (F := Ideal) v0 v2 = fun j => quant (v0 j) (v2 j) := by
  unfold k0_pay1
  simp only [shapeCast_self]
  rfl

end Cert.KernelIdeal.BlockValue

end
-- ==== Proof.ArrayValue.lean ====
/-
  From the blocks to the flattened array.

  The kernel call runs over the two argument arrays flattened to 32768 × 4096 and a grid of 64 points; at point t every
  window is the block of rows 512·t … 512·t + 511 (all 4096 columns) of its array.  The step at t loads that block of
  the flattened value array and of the flattened noise array and writes back the quantizer of the two, element by
  element — which is that same block of ONE whole-array function, the quantizer of the two flattened arrays index by
  index.  The 64 row blocks tile the 32768 rows (row r lies in block r / 512), so after the last write-back the output
  array is that function everywhere.
-/
import proofs.«105005_j14353780703995_2_alg».proof.Proof.Gen.KernelIdeal.Frame
import proofs.«105005_j14353780703995_2_alg».proof.Proof.BlockValue
import Idealize.ShloMosaic.Lib.Pipeline.Value

set_option maxRecDepth 16384

noncomputable section

namespace Cert.KernelIdeal.ArrayValue

open Idealize.ShloMosaic Idealize.ShloMosaic.TcCoe Idealize.SL.Sem
open Cert.KernelIdeal Cert.KernelIdeal.Gen Cert.KernelIdeal.BlockValue Cert.Quantizer
open Idealize.ShloMosaic.Pipeline (Dat)

variable (m : (ℓ : Loc nD τ sig) → Buf (Elt Ideal) ℓ)

/-- The flattened output: the quantizer of the flattened value array and the flattened noise array (as the region
    finds them), index by index. -/
def flat (c : Dev nD) : S32768x4096.Idx → Elt Ideal .f32 :=
  fun i => quant (V m c main_v0 i) (V m c main_v1 i)

/-- The zero offset of the body's whole-block load and store. -/
theorem zero_offset : (![0, 0] : Fin 2 → Nat) = fun _ => 0 := funext fun a => by fin_cases a <;> rfl

/-- The three index maps agree at every grid point: block row t, block column 0. -/
theorem block_indices : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 63
    ∧ win0_2.index t (1 : Fin 2) = 0 :=
  (by decide +kernel : ∀ t : Fin grid0.N, _)

/-- Every one of the 64 row blocks is some grid point's. -/
theorem block_of_row : ∀ q : Fin 64, ∃ t : Fin cfg0.N, win0_2.index t = ![q.val, 0] :=
  (by decide +kernel : ∀ q : Fin 64, ∃ t : Fin grid0.N, win0_2.index t = ![q.val, 0])

/-- What grid point t writes back is block t of the flattened output. -/
theorem flushed_eq (c : Dev nD) (t : Fin cfg0.N) :
    (dats m 0 c).flushed 2 t = ((cfg0.win 2).blk t).view.read (Elt Ideal) (flat m c) := by
  show (cfg0.win 2).cut (grid0.coords t) ((dats m 0 c).after 2 t) = _
  rw [after0_2]
  unfold out0_2
  rw [View.canon_unit_zero zero_offset]
  simp only [View.ld_unit_zero (S := S512x4096) zero_offset]
  rw [payload_eq_quant]
  obtain ⟨e0, e1, e2, e3, -, -⟩ := block_indices t
  funext j
  show quant (V m c main_v0 (((cfg0.win 0).blk t).view.emb j)) (V m c main_v1 (((cfg0.win 1).blk t).view.emb j))
    = quant (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 4096 + 1 * (j 1).val = win0_2.index t (1 : Fin 2) * 4096 + 1 * (j 1).val; omega
  rw [h0, h1]

/-- An index of the flattened array lies in point t's block iff each coordinate lies in the block's range. -/
theorem mem_block (t : Fin cfg0.N) (i : S32768x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v2).slice (win0_2.rect t)).set ↔ _
  rw [View.set_slice_whole, Rect.mem_set_unit]
  exact Iff.rfl

/-- The row blocks tile the array: row r is in the block of the point whose block row is r / 512. -/
theorem covered (i : S32768x4096.Idx) :
    ∃ t : Fin cfg0.N, (cfg0.win 2).flush t = true ∧ i ∈ ((cfg0.win 2).blk t).view.set := by
  have hi0 : (i 0).val < 32768 := (i 0).isLt
  have hi1 : (i 1).val < 4096 := (i 1).isLt
  obtain ⟨t, ht⟩ := block_of_row ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The output array after the last write-back is the flattened output. -/
theorem final (c : Dev nD) : (dats m 0 c).arrAt 2 cfg0.N = flat m c :=
  (dats m 0 c).arrAt_eq_of_cover 2 (flat m c) (fun t _ => flushed_eq m c t) (covered)

end Cert.KernelIdeal.ArrayValue

end
-- ==== Proof.LibReshapeRoundTrip.lean ====
/-
  Reshaping commutes with elementwise functions, and a reshape there and back is the identity.

  A reshape reads its operand at the index with the same row-major position, so it only re-indexes.  Hence a binary
  elementwise function of two arrays that were both reshaped from shape s to shape t, reshaped back to s, is that
  function of the two original arrays, index by index.
-/
import Idealize.ShloMosaic.Lib.Pipeline.Value

namespace Cert.Lib.ReshapeRoundTrip

open Idealize.ShloMosaic

/-- Flatten two arrays, combine them element by element, restore the shape: the result is the elementwise
    combination of the original arrays. -/
theorem shapeCast_map₂_shapeCast {s t : Shape} {α β γ : Type} (q : α → β → γ) (a : s.Idx → α) (b : s.Idx → β)
    (h : s.ShapeCasts t) (h' : t.ShapeCasts s) :
    shapeCast s (fun j => q (shapeCast t a h j) (shapeCast t b h j)) h' = fun i => q (a i) (b i) := by
  funext i
  show q (shapeCast s (shapeCast t a h) h' i) (shapeCast s (shapeCast t b h) h' i) = _
  rw [shapeCast_shapeCast, shapeCast_shapeCast]

end Cert.Lib.ReshapeRoundTrip
-- ==== Proof.ProgramValue.lean ====
/-
  The whole program's result.

  Around the kernel call the program only re-indexes: it flattens each 32 × 1024 × 4096 argument to 32768 × 4096
  before the call (the copy that the output aliases is a copy of the flattened value array, which the call
  overwrites block by block), and restores the 32 × 1024 × 4096 shape of the call's output after it.  A reshape reads
  its operand at the index with the same row-major position, so flattening both arguments, quantizing element by
  element and restoring the shape is quantizing the two arguments element by element.
-/
import proofs.«105005_j14353780703995_2_alg».proof.Proof.Gen.KernelIdeal.Frame
import proofs.«105005_j14353780703995_2_alg».proof.Proof.ArrayValue
import proofs.«105005_j14353780703995_2_alg».proof.Proof.LibReshapeRoundTrip
import Idealize.ShloMosaic.Lib.Pipeline.Value
import Idealize.ShloMosaic.Lib.StableHlo.Run

set_option maxRecDepth 16384

noncomputable section

namespace Cert.KernelIdeal.ProgramValue

open Idealize.ShloMosaic Idealize.ShloMosaic.TcCoe Idealize.SL.Sem Idealize.ShloMosaic.StableHlo
open Cert.KernelIdeal Cert.KernelIdeal.Gen Cert.KernelIdeal.ArrayValue Cert.Quantizer
open Idealize.ShloMosaic.Pipeline (Dat)

variable (m : (ℓ : Loc nD τ sig) → Buf (Elt Ideal) ℓ) (ρ : Dev nD → PrngReg)

/-- The region finds the flattened value array: the first argument reshaped to 32768 × 4096. -/
theorem entry_values (c : Dev nD) :
    (V m c main_v0 : S32768x4096.Idx → Elt Ideal .f32)
      = shapeCast S32768x4096 (m ((c : Thread nD τ).loc main_arg0)) Facts₀.shapeCasts_S32x1024x4096_S32768x4096 := by
  show StableHlo.after hostOps0 (fun b => m (c, b)) (Proc.devRef .tc main_v0) = _
  after_results
  rfl

/-- The region finds the flattened noise array: the second argument reshaped to 32768 × 4096. -/
theorem entry_noise (c : Dev nD) :
    (V m c main_v1 : S32768x4096.Idx → Elt Ideal .f32)
      = shapeCast S32768x4096 (m ((c : Thread nD τ).loc main_arg1)) Facts₀.shapeCasts_S32x1024x4096_S32768x4096 := by
  show StableHlo.after hostOps0 (fun b => m (c, b)) (Proc.devRef .tc main_v1) = _
  after_results
  rfl

/-- The program's result is the call's output array, reshaped back to 32 × 1024 × 4096. -/
theorem tail_value (c : Dev nD) :
    Pipeline.afterTail₀ cfgs (dats m) 0 (V0 m) [hostOps1] c main_v3
      = shapeCast S32x1024x4096 (flat m c) Facts₀.shapeCasts_S32768x4096_S32x1024x4096 := by
  unfold Pipeline.afterTail₀
  show StableHlo.after hostOps1 _ (Proc.devRef .tc main_v3) = _
  after_results
  exact congrArg (fun X : S32768x4096.Idx → Elt Ideal .f32 =>
      shapeCast S32x1024x4096 X Facts₀.shapeCasts_S32768x4096_S32x1024x4096)
    ((Pipeline.withArrays_arr spec0 launch0.win.arr_inj c (V0 m c) _ 2).trans (final m c))

/-- The program's result, index by index: the quantizer of the two arguments' elements. -/
theorem result_value (c : Dev nD) :
    Pipeline.afterTail₀ cfgs (dats m) 0 (V0 m) [hostOps1] c main_v3
      = fun i => quant (m ((c : Thread nD τ).loc main_arg0) i) (m ((c : Thread nD τ).loc main_arg1) i) := by
  rw [tail_value]
  unfold flat
  rw [entry_values, entry_noise]
  exact Cert.Lib.ReshapeRoundTrip.shapeCast_map₂_shapeCast quant _ _ _ _

/-- Every weakly fair execution of the program terminates without a fault, with the result at the quantizer of the
    two arguments index by index and the arguments unchanged. -/
theorem run : θ_run defs (onTc (τ := τ) (main (F := Ideal))) ⟨m, fun _ => 0, ρ⟩ (fun r => ∀ c : Dev nD,
      r.2.mem ((c.tc : Thread nD τ).loc main_v3)
        = (fun i => quant (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ProgramValue

end
-- ==== Proof.lean ====
/-
  A fixed-point quantizer with additive noise, as a tiled kernel over row blocks, against its whole-array reference.

  Both programs take a value array x and a noise array r of shape 32 × 1024 × 4096 and return, element by element,
      clamp (⌊x / σ + r⌋ · σ)  into  [-8, 8 - σ],    σ = 2⁻⁴.
  The kernel flattens both arrays to 32768 × 4096, runs 64 grid steps each over a block of 512 whole rows (load the
  two blocks, divide by σ, add, round down, multiply by σ, clamp against the words of -8 and 7.9375, store), and
  restores the shape.  The reference does the same arithmetic on the whole arrays with splat constants, its upper
  bound computed as 8 - σ.

  Read over the extended reals the two agree exactly, with no condition on the inputs: the kernel's and the host's
  division are one function, and so are their floors; a reshape only re-indexes, so flattening, working element by
  element and restoring the shape is working element by element; the row blocks tile the flattened array; and
  8 - 1/16 = 127/16 is the number the word of 7.9375 denotes.  No rewrite was applied to the kernel when it was
  idealized, so there is nothing to preserve.
    * Quantizer            the quantizer as one function of two extended reals, and 8 - σ = 7.9375
    * ReferenceValue       the reference, index by index, is the quantizer
    * BlockValue           what one grid step stores is the quantizer of the two blocks it loaded
    * ArrayValue           the 64 written-back blocks make up the quantizer of the flattened arrays
    * LibReshapeRoundTrip  flatten, combine element by element, restore the shape
    * ProgramValue         the whole kernel program's result, and its run
-/
import proofs.«105005_j14353780703995_2_alg».proof.Defs
import proofs.«105005_j14353780703995_2_alg».proof.Proof.Gen.Kernel
import proofs.«105005_j14353780703995_2_alg».proof.Proof.Gen.Kernel.Skeleton
import proofs.«105005_j14353780703995_2_alg».proof.Proof.Gen.Kernel.Launch
import proofs.«105005_j14353780703995_2_alg».proof.Proof.Gen.Kernel.Points
import proofs.«105005_j14353780703995_2_alg».proof.Proof.Gen.Kernel.Frame
import proofs.«105005_j14353780703995_2_alg».proof.Proof.Gen.KernelIdeal
import proofs.«105005_j14353780703995_2_alg».proof.Proof.Gen.KernelIdeal.Skeleton
import proofs.«105005_j14353780703995_2_alg».proof.Proof.Gen.KernelIdeal.Launch
import proofs.«105005_j14353780703995_2_alg».proof.Proof.Gen.KernelIdeal.Points
import proofs.«105005_j14353780703995_2_alg».proof.Proof.Gen.KernelIdeal.Frame
import proofs.«105005_j14353780703995_2_alg».proof.Proof.Gen.ReferenceIdeal
import proofs.«105005_j14353780703995_2_alg».proof.Proof.Gen.Pre_finite_inputs
import proofs.«105005_j14353780703995_2_alg».proof.Proof.Gen.ReferenceIdeal.Run
import proofs.«105005_j14353780703995_2_alg».proof.Proof.Gen.ReferenceIdeal.Read
import proofs.«105005_j14353780703995_2_alg».proof.Proof.ReferenceValue
import proofs.«105005_j14353780703995_2_alg».proof.Proof.ProgramValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- Over the extended reals both programs end with the quantizer of the two arguments, index by index: the kernel by
    its blocks, flattening and restoring the shape; the reference stage by stage. -/
theorem algebraic : Cert.algebraic_KernelIdeal_ReferenceIdeal := by
  intro m ρ m' ρ' _ hagree
  refine ⟨fun c i => Cert.Quantizer.quant
      (m ((c.tc : Thread Cert.KernelIdeal.nD Cert.KernelIdeal.τ).loc Cert.KernelIdeal.main_arg0) i)
      (m ((c.tc : Thread Cert.KernelIdeal.nD Cert.KernelIdeal.τ).loc Cert.KernelIdeal.main_arg1) i),
    Cert.KernelIdeal.ProgramValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.result_eq_quant,
    (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
